-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S640000x128 .f32) (main_arg2 : IVec S640000 32) (main_arg3 : IVec S640000 32) (main_arg4 : FVec F S128x128 .f32) (main_arg5 : FVec F S128x128 .f32) (main_arg6 : FVec F S128x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_v13 main_v16
-- ==== Kernel.lean ====
abbrev S10000x128 : Shape := ⟨2, ![10000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩
abbrev S10000 : Shape := ⟨1, ![10000]⟩
abbrev S640000x1 : Shape := ⟨2, ![640000, 1]⟩
abbrev S6400x128 : Shape := ⟨2, ![6400, 128]⟩
abbrev S6400x1 : Shape := ⟨2, ![6400, 1]⟩
abbrev S1x128 : Shape := ⟨2, ![1, 128]⟩

abbrev nBuf : Space → Nat
  | .hbm => 70
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S10000, .f32⟩
  | .hbm, ⟨12, _⟩ => ⟨S640000x1, .i32⟩
  | .hbm, ⟨13, _⟩ => ⟨S10000, .f32⟩
  | .hbm, ⟨14, _⟩ => ⟨S_, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S10000x128, .f32⟩
  | .hbm, ⟨22, _⟩ => ⟨S10000x128, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x128, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S640000x128, .f32⟩
  | .hbm, ⟨42, _⟩ => ⟨S640000x128, .bf16⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000, .f32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000, .f32⟩
  | .hbm, ⟨61, _⟩ => ⟨S640000, .f32⟩
  | .hbm, ⟨62, _⟩ => ⟨S640000x1, .f32⟩
  | .hbm, ⟨63, _⟩ => ⟨S640000x1, .bf16⟩
  | .hbm, ⟨64, _⟩ => ⟨S640000x128, .bf16⟩
  | .hbm, ⟨65, _⟩ => ⟨S640000x128, .f32⟩
  | .hbm, ⟨66, _⟩ => ⟨S_, .f32⟩
  | .hbm, ⟨67, _⟩ => ⟨S10000x128, .f32⟩
  | .hbm, ⟨68, _⟩ => ⟨S640000x1, .i32⟩
  | .hbm, ⟨69, _⟩ => ⟨S10000x128, .f32⟩
  | .local _ .vmem, ⟨0, _⟩ => ⟨S6400x128, .f32⟩
  | .local _ .vmem, ⟨1, _⟩ => ⟨S6400x128, .f32⟩
  | .local _ .vmem, ⟨2, _⟩ => ⟨S6400x128, .bf16⟩
  | .local _ .vmem, ⟨3, _⟩ => ⟨S6400x128, .bf16⟩
  | .local _ .vmem, ⟨4, _⟩ => ⟨S6400x1, .bf16⟩
  | .local _ .vmem, ⟨5, _⟩ => ⟨S6400x1, .bf16⟩
  | .local _ .vmem, ⟨6, _⟩ => ⟨S128x128, .f32⟩
  | .local _ .vmem, ⟨7, _⟩ => ⟨S128, .f32⟩
  | .local _ .vmem, ⟨8, _⟩ => ⟨S6400x128, .bf16⟩
  | .local _ .vmem, ⟨9, _⟩ => ⟨S6400x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x1 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bitsLt_bf16_f32 : FTy.bits .bf16 < FTy.bits .f32
  shapeCasts_S640000_S640000x1 : S640000.ShapeCasts S640000x1
  inb_S6400x128_S6400x128_0_0 : ∀ a, (![0, 0] : Fin 2 → Nat) a + S6400x128.size a ≤ S6400x128.size a
  h_S6400x128 : 0 < S6400x128.numel
  inb_S128x128_S128x128_0_0 : ∀ a, (![0, 0] : Fin 2 → Nat) a + S128x128.size a ≤ S128x128.size a
  h_S128x128 : 0 < S128x128.numel
  shapeCasts_S6400x128_S6400x128 : S6400x128.ShapeCasts S6400x128
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x128 : S6400x1.Broadcasts S6400x128
  packedbf16_S6400x128_S6400x128_0_0 : (Rect.unit (s := S6400x128) ![0, 0] S6400x128.size inb_S6400x128_S6400x128_0_0).PackedRows (EltTy.packing .bf16)
  bcast_S_S10000x128 : S_.BroadcastsInDim S10000x128 (![] : Fin 0 → Fin S10000x128.rank)
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  gather_S10000_S640000x1_S640000_n_0_n_n_0_1_1_wf : GatherDims.WF S10000 S640000x1 S640000 [] [0] [] [0] [] 1 ![1]
  dot_S6400x128_S128x128_S6400x128_1_0_0_1_n_n_wf : DotDims.WF S6400x128 S128x128 S6400x128 [1] [0] [0] [1] [] []
  scatter_S10000x128_S640000x1_S640000x128_1_0_0_1_wf : ScatterDims.WF S10000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .f32 = 32 ∨ (Rect.block (s := S640000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S640000x128.size a
  hwx0_1 : ∀ i : grid0.Coords, EltTy.bits .bf16 = 32 ∨ (Rect.block (s := S640000x128) S6400x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x1.size a ≤ S640000x1.size a
  hwx0_2 : ∀ i : grid0.Coords, EltTy.bits .bf16 = 32 ∨ (Rect.block (s := S640000x1) S6400x1.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x128.size a ≤ S640000x128.size a
  hwx0_5 : ∀ i : grid0.Coords, EltTy.bits .bf16 = 32 ∨ (Rect.block (s := S640000x128) S6400x128.size (cc0_transform_5 i) (hinb0_5 i)).WholeWords (EltTy.packing .bf16)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

abbrev win0_0 : Pipeline.Window sig grid0 :=
  Pipeline.Window.ofSpec (Memref.whole main_arg1) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S6400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S6400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S10000, .f32⟩
  | .hbm, ⟨12, _⟩ => ⟨S640000x1, .i32⟩
  | .hbm, ⟨13, _⟩ => ⟨S10000, .f32⟩
  | .hbm, ⟨14, _⟩ => ⟨S_, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S10000x1, .f32⟩
  | .hbm, ⟨22, _⟩ => ⟨S10000x128, .f32⟩
  | .hbm, ⟨23, _⟩ => ⟨S10000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S640000x128, .f32⟩
  | .hbm, ⟨42, _⟩ => ⟨S640000x128, .f32⟩
  | .hbm, ⟨43, _⟩ => ⟨S640000x128, .f32⟩
  | .hbm, ⟨44, _⟩ => ⟨S640000x128, .f32⟩
  | .hbm, ⟨45, _⟩ => ⟨S1x128, .f32⟩
  | .hbm, ⟨46, _⟩ => ⟨S640000x128, .f32⟩
  | .hbm, ⟨47, _⟩ => ⟨S640000x128, .f32⟩
  | .hbm, ⟨48, _⟩ => ⟨S_, .f32⟩
  | .hbm, ⟨49, _⟩ => ⟨S640000x128, .f32⟩
  | .hbm, ⟨50, _⟩ => ⟨S640000x128, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x1, .f32⟩
  | .hbm, ⟨60, _⟩ => ⟨S_, .i32⟩
  | .hbm, ⟨61, _⟩ => ⟨S640000, .i32⟩
  | .hbm, ⟨62, _⟩ => ⟨S640000, .i1⟩
  | .hbm, ⟨63, _⟩ => ⟨S_, .i32⟩
  | .hbm, ⟨64, _⟩ => ⟨S640000, .i32⟩
  | .hbm, ⟨65, _⟩ => ⟨S640000, .i32⟩
  | .hbm, ⟨66, _⟩ => ⟨S640000, .i32⟩
  | .hbm, ⟨67, _⟩ => ⟨S640000x1, .i32⟩
  | .hbm, ⟨68, _⟩ => ⟨S640000x1, .f32⟩
  | .hbm, ⟨69, _⟩ => ⟨S640000x1, .f32⟩
  | .hbm, ⟨70, _⟩ => ⟨S640000x128, .f32⟩
  | .hbm, ⟨71, _⟩ => ⟨S640000x128, .f32⟩
  | .hbm, ⟨72, _⟩ => ⟨S_, .f32⟩
  | .hbm, ⟨73, _⟩ => ⟨S10000x128, .f32⟩
  | .hbm, ⟨74, _⟩ => ⟨S640000x1, .i32⟩
  | .hbm, ⟨75, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  dot_S640000x128_S128x128_S640000x128_1_0_0_1_n_n_wf : DotDims.WF S640000x128 S128x128 S640000x128 [1] [0] [0] [1] [] []
  gather_S10000x1_S640000x1_S640000x1_1_0_n_n_0_1_11_wf : GatherDims.WF S10000x1 S640000x1 S640000x1 [1] [0] [] [0] [] 1 ![1, 1]
  scatter_S10000x128_S640000x1_S640000x128_1_0_0_1_wf : ScatterDims.WF S10000x128 S640000x1 S640000x128 [1] [0] [0] 1

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S10000x1_S640000x1_S640000x1_1_0_n_n_0_1_11 : GatherDims S10000x1 S640000x1 S640000x1 where
  offsetDims := [1]
  collapsedSliceDims := [0]
  operandBatchingDims := []
  startIndicesBatchingDims := []
  startIndexMap := [0]
  indexVectorDim := 1
  sliceSizes := ![1, 1]
  wf := gather_S10000x1_S640000x1_S640000x1_1_0_n_n_0_1_11_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.Spec.lean ====
/-
  The edge messages of one round of graph message passing, and their sum into the destination nodes.

  Nodes carry feature rows `x` (10000 × 128), edges carry feature rows `ef` (640000 × 128) and two node numbers,
  a source `src e` and a destination `dst e`. With three 128 × 128 weights `Wq`, `Wk`, `We` and a bias `b`:

    deg v        = the number of edges whose destination is v
    nrm v        = max(1, deg v) ^ (−1/2)
    nodeTerm e   = (x · Wq)[dst e] + (x · Wk)[src e]
    message e    = max((nodeTerm e + ef[e] · We) + b, 0) · (nrm (src e) · nrm (dst e))
    result v     = Σ { message e : dst e = v }

  Everything that reads a table row by an edge's node number (the two row gathers, the norm gathers, the final
  scatter) is kept as the host operation it is: the kernel and its reference use the same ones, in the same order.
  What this file pins down entry by entry is `message`: the sum over the contracted axis and the association of
  the three additions.
-/
import proofs.«166468_j2645699854684_2_alg».proof.Proof.Gen.KernelIdeal
import Idealize.ShloMosaic.Lib.ValueIdx

noncomputable section

namespace Cert.EdgeMessage

open Cert.KernelIdeal Cert.KernelIdeal.Gen Idealize.ShloMosaic Idealize.ShloMosaic.ValueIdx

abbrev NodeNumbers := IVec S640000 32
abbrev NodeRows := FVec Ideal S10000x128 .f32
abbrev EdgeRows := FVec Ideal S640000x128 .f32
abbrev Weight := FVec Ideal S128x128 .f32
abbrev Bias := FVec Ideal S128 .f32

/-- Node numbers as the row gathers take them: a negative number moved up once by the table height 10000, the
    list laid out as one column. -/
def rowIdx (n : NodeNumbers) : IVec S640000x1 32 :=
  broadcastInDim S640000x1 ![0] bcast_S640000_S640000x1_0
    (select (cmpi .slt n (broadcastInDim S640000 ![] bcast_S_S640000 (constantI S_ 32 0#32)))
      (addi n (broadcastInDim S640000 ![] bcast_S_S640000 (constantI S_ 32 10000#32))) n)

/-- `(x · Wq)[dst e] + (x · Wk)[src e]`, one row per edge. -/
def nodeTerm (x : NodeRows) (src dst : NodeNumbers) (Wq Wk : Weight) : EdgeRows :=
  addf
    (Host.gather gather_S10000x128_S640000x1_S640000x128_1_0_n_n_0_1_1128
      (Host.dotGeneral dot_S10000x128_S128x128_S10000x128_1_0_0_1_n_n none x Wq) (rowIdx dst))
    (Host.gather gather_S10000x128_S640000x1_S640000x128_1_0_n_n_0_1_1128
      (Host.dotGeneral dot_S10000x128_S128x128_S10000x128_1_0_0_1_n_n none x Wk) (rowIdx src))

/-- `max(1, deg v) ^ (−1/2)`: the in-degrees counted by adding a one per edge at its destination. -/
def nrm (dst : NodeNumbers) : FVec Ideal S10000 .f32 :=
  Host.powf
    (maximumf (broadcastInDim S10000 ![] bcast_S_S10000 (id (constant S_ .f32 0x3F800000#32)))
      (Host.scatterAdd scatter_S10000_S640000x1_S640000_n_0_0_1
        (broadcastInDim S10000 ![] bcast_S_S10000 (constant S_ .f32 0x00000000#32))
        (broadcastInDim S640000x1 ![0] bcast_S640000_S640000x1_0 dst)
        (broadcastInDim S640000 ![] bcast_S_S640000 (constant S_ .f32 0x3F800000#32))))
    (broadcastInDim S10000 ![] bcast_S_S10000 (constant S_ .f32 0xBF000000#32))

/-- `nrm (src e) · nrm (dst e)`, one number per edge. -/
def normProd (src dst : NodeNumbers) : FVec Ideal S640000 .f32 :=
  mulf (Host.gather gather_S10000_S640000x1_S640000_n_0_n_n_0_1_1 (nrm dst) (rowIdx src))
    (Host.gather gather_S10000_S640000x1_S640000_n_0_n_n_0_1_1 (nrm dst) (rowIdx dst))

/-- Entry `(e, d)` of the messages. -/
def messageAt (x : NodeRows) (ef : EdgeRows) (src dst : NodeNumbers) (Wq Wk We : Weight) (b : Bias)
    (e : Fin 640000) (d : Fin 128) : EReal :=
  max ((nodeTerm x src dst Wq Wk (ix2 e d) + ∑ k : Fin 128, ef (ix2 e k) * We (ix2 k d)) + b (ix1 d))
      (Ideal.ofBits .f32 0x00000000#32)
    * normProd src dst (ix1 e)

/-- The messages, one row per edge. -/
def message (x : NodeRows) (ef : EdgeRows) (src dst : NodeNumbers) (Wq Wk We : Weight) (b : Bias) : EdgeRows :=
  fun i => messageAt x ef src dst Wq Wk We b (i 0) (i 1)

/-- Rows added into a zero table at their edges' destinations. -/
def sumAtDst (dst : NodeNumbers) (M : EdgeRows) : NodeRows :=
  Host.scatterAdd scatter_S10000x128_S640000x1_S640000x128_1_0_0_1
    (broadcastInDim S10000x128 ![] bcast_S_S10000x128 (constant S_ .f32 0x00000000#32))
    (broadcastInDim S640000x1 ![0] bcast_S640000_S640000x1_0 dst) M

/-- The round's result. -/
def result (x : NodeRows) (ef : EdgeRows) (src dst : NodeNumbers) (Wq Wk We : Weight) (b : Bias) : NodeRows :=
  sumAtDst dst (message x ef src dst Wq Wk We b)

end Cert.EdgeMessage

end
-- ==== Proof.SpecRead.lean ====
/-
  A message entry by its coordinates: `message` at an index is `messageAt` at the index's two coordinates, the edge
  number and the feature number, whatever the arrays are.
-/
import proofs.«166468_j2645699854684_2_alg».proof.Proof.Spec

noncomputable section

namespace Cert.EdgeMessage

open Cert.KernelIdeal Cert.KernelIdeal.Gen Idealize.ShloMosaic Idealize.ShloMosaic.ValueIdx

theorem message_apply (x : NodeRows) (ef : EdgeRows) (src dst : NodeNumbers) (Wq Wk We : Weight) (b : Bias)
    (i : S640000x128.Idx) : message x ef src dst Wq Wk We b i = messageAt x ef src dst Wq Wk We b (i 0) (i 1) := rfl

theorem message_ix2 (x : NodeRows) (ef : EdgeRows) (src dst : NodeNumbers) (Wq Wk We : Weight) (b : Bias)
    (e : Fin 640000) (d : Fin 128) : message x ef src dst Wq Wk We b (ix2 e d) = messageAt x ef src dst Wq Wk We b e d := rfl

end Cert.EdgeMessage

end
-- ==== Proof.LibColumnBroadcast.lean ====
/-
  One column broadcast over many.

  An `a × 1` column broadcast to `a × b` repeats, along each row, that row's one entry: the result at `(p, c)` is
  the column at `(p, 0)`, whatever the column coordinate `c`. (The companion of the row form, where a `1 × b` row
  is repeated down the rows.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.BodyAtIndex.lean ====
/-
  One block of the message kernel, entry by entry.

  At a grid point the body holds a 6400 × 128 block of edge features `ef`, the whole 128 × 128 weight `We`, the
  matching block `qk` of node terms, the bias `b` and the block's 6400 × 1 column `np` of norm products, and stores

      max((qk[p, q] + Σₖ ef[p, k] · We[k, q]) + b[q], 0) · np[p, 0]

  at `(p, q)`. Over the extended reals the two narrowings to half width and the widenings back are the identity,
  the product into a zero accumulator is the plain sum over the contracted axis, the bias row is repeated down the
  rows and the norm column along them.
-/
import proofs.«166468_j2645699854684_2_alg».proof.Proof.Gen.KernelIdeal.Skeleton
import proofs.«166468_j2645699854684_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.EdgeMessage.Body

open Cert.KernelIdeal Cert.KernelIdeal.Gen Idealize.ShloMosaic Idealize.ShloMosaic.ValueIdx

local notation "blockDot" => dot_S6400x128_S128x128_S6400x128_1_0_0_1_n_n

/-- Row `p` of the left operand is read along the contracted axis: its row coordinate is the output's. -/
theorem blockDot_lhs_row (i : S6400x128.Idx) (q : (blockDot).contr.Idx) : ((blockDot).lhsIdx i q 0).val = (i 0).val := by
  unfold DotDims.lhsIdx
  rw [dif_neg (show ¬(0 : Fin S6400x128.rank) ∈ (blockDot).lhsBatch by decide),
    dif_pos (show (0 : Fin S6400x128.rank) ∈ (blockDot).lhsNonContracting by decide)]
  rfl

/-- Column `q` of the right operand is read down the contracted axis: its column coordinate is the output's. -/
theorem blockDot_rhs_col (i : S6400x128.Idx) (q : (blockDot).contr.Idx) : ((blockDot).rhsIdx i q 1).val = (i 1).val := by
  unfold DotDims.rhsIdx
  rw [dif_neg (show ¬(1 : Fin S128x128.rank) ∈ (blockDot).rhsBatch by decide),
    dif_pos (show (1 : Fin S128x128.rank) ∈ (blockDot).rhsNonContracting by decide)]
  rfl

/-- The block's matrix product into the zero accumulator, at `(p, q)`: the inner product of row `p` of the left
    operand with column `q` of the right one. -/
theorem blockDot_apply (a : FVec Ideal S6400x128 .bf16) (w : FVec Ideal S128x128 .bf16) (p : Fin 6400) (q : Fin 128) :
    matmul (F := Ideal) blockDot none a w (constant S6400x128 .f32 0x00000000#32) (ix2 p q)
      = ∑ k : Fin 128, a (ix2 p k) * w (ix2 k q) := by
  simp only [matmul]
  rw [Ideal.matmul_constant_zero_apply, ← Equiv.sum_comp (contrEquiv1 blockDot 128 rfl rfl).symm]
  refine Finset.sum_congr rfl fun k _ => ?_
  have hk := contrEquiv1_symm_val blockDot 128 rfl rfl k
  have el : (blockDot).lhsIdx (ix2 p q) ((contrEquiv1 blockDot 128 rfl rfl).symm k) = ix2 p k := funext fun ax => Fin.ext (by
    match ax with
    | ⟨0, _⟩ => exact blockDot_lhs_row _ _
    | ⟨1, _⟩ => exact ((blockDot).lhsIdx_val_of_single rfl _ _).trans hk)
  have er : (blockDot).rhsIdx (ix2 p q) ((contrEquiv1 blockDot 128 rfl rfl).symm k) = ix2 k q := funext fun ax => Fin.ext (by
    match ax with
    | ⟨0, _⟩ => exact ((blockDot).rhsIdx_val_of_single rfl _ _).trans hk
    | ⟨1, _⟩ => exact blockDot_rhs_col _ _)
  rw [el, er]

/-- THE BODY'S STORED VALUE AT `(p, q)`. -/
theorem stored_apply (v0 : Vec Ideal S6400x128 .f32) (v2 : Vec Ideal S128x128 .f32) (v5 : Vec Ideal S6400x128 .bf16)
    (v9 : Vec Ideal S128 .f32) (v15 : Vec Ideal S6400x1 .bf16) (p : Fin 6400) (q : Fin 128) :
    (k0_pay1 v0 v2 v5 v9 v15 (ix2 p q) : EReal)
      = max (((v5 (ix2 p q) : EReal) + ∑ k : Fin 128, (v0 (ix2 p k) : EReal) * (v2 (ix2 k q) : EReal)) + (v9 (ix1 q) : EReal))
            (Ideal.ofBits .f32 0x00000000#32)
          * (v15 (ix2 p (0 : Fin 1)) : EReal) := by
  unfold k0_pay1
  simp only [truncf_apply, mulf_apply, maximumf_apply, addf_apply, broadcast_apply]
  rw [shapeCast_self, shapeCast_self, blockDot_apply, broadcastTo_1b_ab_apply, shapeCast_a_1a_apply,
    Cert.LibColumnBroadcast.broadcastTo_a1_ab_apply]
  rfl

end Cert.EdgeMessage.Body

end
-- ==== Proof.EntryArrays.lean ====
/-
  What the host lines before the kernel leave in the two arrays it computes for it.

  The kernel's second operand is the node terms `(x · Wq)[dst e] + (x · Wk)[src e]`, narrowed to half width (the
  identity over the extended reals); its third is the products `nrm (src e) · nrm (dst e)` laid out as one column
  and narrowed likewise. Both are read back off the host operations' results, one operation at a time.
-/
import proofs.«166468_j2645699854684_2_alg».proof.Proof.Gen.KernelIdeal.Frame
import proofs.«166468_j2645699854684_2_alg».proof.Proof.Spec
import Idealize.ShloMosaic.Lib.StableHlo.Run

noncomputable section

namespace Cert.EdgeMessage.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 8000000 in
/-- The second operand's array at the kernel's launch: the node terms. -/
theorem nodeTerm_found (c : Dev nD) :
    (V m c main_v24 : S640000x128.Idx → EReal)
      = nodeTerm (m ((c : Thread nD τ).loc main_arg0)) (m ((c : Thread nD τ).loc main_arg2))
          (m ((c : Thread nD τ).loc main_arg3)) (m ((c : Thread nD τ).loc main_arg4)) (m ((c : Thread nD τ).loc main_arg5)) := by
  dsimp only [V, V0]
  simp only [hostOps0, hostOps0_1, hostOps0_2, List.flatten_cons, List.flatten_nil, List.append_nil, List.cons_append,
    List.nil_append]
  after_results_simp
  rfl

set_option maxRecDepth 8192 in
set_option maxHeartbeats 8000000 in
/-- The third operand's array at the kernel's launch: the norm products as one column. -/
theorem normProd_found (c : Dev nD) :
    (V m c main_v41 : S640000x1.Idx → EReal)
      = shapeCast S640000x1 (normProd (m ((c : Thread nD τ).loc main_arg2)) (m ((c : Thread nD τ).loc main_arg3)))
          shapeCasts_S640000_S640000x1 := by
  dsimp only [V, V0]
  simp only [hostOps0, hostOps0_1, hostOps0_2, List.flatten_cons, List.flatten_nil, List.append_nil, List.cons_append,
    List.nil_append]
  after_results_simp
  rfl

end Cert.EdgeMessage.Entry

end
-- ==== Proof.LibColumnCast.lean ====
/-
  A shape cast that appends a unit axis, read at an index.

  Casting a vector of length `a` to an `a × 1` column keeps row-major positions: position `i` of the vector is
  position `i * 1 + 0` of the column. So the column at `(i, u)` — `u` the only coordinate of the unit axis — is
  the vector at `i`. The same holds for casting a `1 × 1` matrix to a vector of length one.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array cast to `[1]` reads, at its one index, the operand at `(0, 0)`. -/
theorem shapeCast_11_1_apply (x : (⟨2, ![1, 1]⟩ : Shape).Idx → α) (h : (⟨2, ![1, 1]⟩ : Shape).ShapeCasts ⟨1, ![1]⟩)
    (u : Fin 1) : shapeCast ⟨1, ![1]⟩ x h (ix1 u) = x (ix2 (0 : Fin 1) (0 : Fin 1)) :=
  shapeCast_apply x h _ _ (by
    have hu : u.val = 0 := by omega
    rw [Shape.rowMajor_val_two, Shape.rowMajor_val_one]
    show 0 * 1 + 0 = u.val
    rw [hu])

end Cert.LibColumnCast
-- ==== Proof.BlockReads.lean ====
/-
  The kernel's input blocks, read at an entry.

  The grid has 100 points; at point `t` the edge features, the node terms and the norm column are read through
  rows `6400·t … 6400·t + 6399` of their arrays, the weight and the bias whole.
-/
import proofs.«166468_j2645699854684_2_alg».proof.Proof.Gen.KernelIdeal.Frame
import proofs.«166468_j2645699854684_2_alg».proof.Proof.Spec
import proofs.«166468_j2645699854684_2_alg».proof.Proof.EntryArrays
import proofs.«166468_j2645699854684_2_alg».proof.Proof.LibColumnCast
import Idealize.ShloMosaic.Lib.Pipeline.Value
import Idealize.ShloMosaic.Lib.ValueIdx
import Idealize.ShloMosaic.Lib.Tactic

set_option maxRecDepth 16384

noncomputable section

namespace Cert.EdgeMessage.BlockReads

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a; rfl

/-- Which block each window is on at point `t`: the row-blocked ones on block row `t`, the weight and the bias on
    their only block. -/
theorem blockNumbers : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## Each input block, read at an entry -/

/-- The edge-feature block at point `t` is rows `6400·t …` of the edge features. -/
theorem edgeBlock_apply (c : Dev nD) (t : Fin cfg0.N) (p : Fin 6400) (k : Fin 128) (e : Fin 640000)
    (he : e.val = 6400 * t.val + p.val) :
    ((iblk m c 0 t : Vec Ideal S6400x128 .f32) (ix2 p k) : EReal)
      = ((m ((c : Thread nD τ).loc main_arg1)) : S640000x128.Idx → EReal) (ix2 e k) := by
  obtain ⟨h0, h1, -⟩ := blockNumbers t
  unfold iblk
  rw [View.read_apply]
  show V m c main_arg1 _ = _
  rw [V_main_arg1 m c]
  refine congrArg _ (funext fun a => Fin.ext ?_)
  match a with
  | ⟨0, _⟩ => show win0_0.index t 0 * 6400 + 1 * p.val = e.val; rw [h0, he]; omega
  | ⟨1, _⟩ => show win0_0.index t 1 * 128 + 1 * k.val = k.val; rw [h1]; omega

/-- The node-term block at point `t` is rows `6400·t …` of the node terms. -/
theorem nodeTermBlock_apply (c : Dev nD) (t : Fin cfg0.N) (p : Fin 6400) (q : Fin 128) (e : Fin 640000)
    (he : e.val = 6400 * t.val + p.val) :
    ((iblk m c 1 t : Vec Ideal S6400x128 .bf16) (ix2 p q) : EReal)
      = nodeTerm (m ((c : Thread nD τ).loc main_arg0)) (m ((c : Thread nD τ).loc main_arg2)) (m ((c : Thread nD τ).loc main_arg3)) (m ((c : Thread nD τ).loc main_arg4)) (m ((c : Thread nD τ).loc main_arg5)) (ix2 e q) := by
  obtain ⟨-, -, h0, h1, -⟩ := blockNumbers t
  unfold iblk
  rw [View.read_apply]
  show (V m c main_v24 : S640000x128.Idx → EReal) _ = _
  rw [Entry.nodeTerm_found m c]
  refine congrArg _ (funext fun a => Fin.ext ?_)
  match a with
  | ⟨0, _⟩ => show win0_1.index t 0 * 6400 + 1 * p.val = e.val; rw [h0, he]; omega
  | ⟨1, _⟩ => show win0_1.index t 1 * 128 + 1 * q.val = q.val; rw [h1]; omega

/-- The norm block at point `t` is entries `6400·t …` of the norm products. -/
theorem normBlock_apply (c : Dev nD) (t : Fin cfg0.N) (p : Fin 6400) (e : Fin 640000)
    (he : e.val = 6400 * t.val + p.val) :
    ((iblk m c 2 t : Vec Ideal S6400x1 .bf16) (ix2 p (0 : Fin 1)) : EReal)
      = normProd (m ((c : Thread nD τ).loc main_arg2)) (m ((c : Thread nD τ).loc main_arg3)) (ix1 e) := by
  obtain ⟨-, -, -, -, h0, h1, -⟩ := blockNumbers t
  unfold iblk
  rw [View.read_apply]
  show (V m c main_v41 : S640000x1.Idx → EReal) _ = _
  rw [Entry.normProd_found m c]
  refine (congrArg _ (funext fun a => Fin.ext ?_)).trans
    (Cert.LibColumnCast.shapeCast_a_a1_apply (normProd (m ((c : Thread nD τ).loc main_arg2)) (m ((c : Thread nD τ).loc main_arg3))) shapeCasts_S640000_S640000x1 e (0 : Fin 1))
  match a with
  | ⟨0, _⟩ => show win0_2.index t 0 * 6400 + 1 * p.val = e.val; rw [h0, he]; omega
  | ⟨1, _⟩ => show win0_2.index t 1 * 1 + 1 * 0 = 0; rw [h1]

/-- The weight block at every point is the weight. -/
theorem weightBlock_apply (c : Dev nD) (t : Fin cfg0.N) (k q : Fin 128) :
    ((iblk m c 3 t : Vec Ideal S128x128 .f32) (ix2 k q) : EReal)
      = ((m ((c : Thread nD τ).loc main_arg6)) : S128x128.Idx → EReal) (ix2 k q) := by
  obtain ⟨-, -, -, -, -, -, h0, h1, -⟩ := blockNumbers t
  unfold iblk
  rw [View.read_apply]
  show V m c main_arg6 _ = _
  rw [V_main_arg6 m c]
  refine congrArg _ (funext fun a => Fin.ext ?_)
  match a with
  | ⟨0, _⟩ => show win0_3.index t 0 * 128 + 1 * k.val = k.val; rw [h0]; omega
  | ⟨1, _⟩ => show win0_3.index t 1 * 128 + 1 * q.val = q.val; rw [h1]; omega

/-- The bias block at every point is the bias. -/
theorem biasBlock_apply (c : Dev nD) (t : Fin cfg0.N) (q : Fin 128) :
    ((iblk m c 4 t : Vec Ideal S128 .f32) (ix1 q) : EReal)
      = ((m ((c : Thread nD τ).loc main_arg7)) : S128.Idx → EReal) (ix1 q) := by
  obtain ⟨-, -, -, -, -, -, -, -, h0, -⟩ := blockNumbers t
  unfold iblk
  rw [View.read_apply]
  show V m c main_arg7 _ = _
  rw [V_main_arg7 m c]
  refine congrArg _ (funext fun a => Fin.ext ?_)
  match a with
  | ⟨0, _⟩ => show win0_4.index t 0 * 128 + 1 * q.val = q.val; rw [h0]; omega

end Cert.EdgeMessage.BlockReads

end
-- ==== Proof.Blocks.lean ====
/-
  From the kernel's blocks to its whole output array.

  The block a grid point writes back is rows `6400·t …` of `message`, and since the 100 row ranges fill all 640000
  rows the output array after the last point is `message` itself.
-/
import proofs.«166468_j2645699854684_2_alg».proof.Proof.Gen.KernelIdeal.Frame
import proofs.«166468_j2645699854684_2_alg».proof.Proof.Spec
import proofs.«166468_j2645699854684_2_alg».proof.Proof.SpecRead
import proofs.«166468_j2645699854684_2_alg».proof.Proof.BodyAtIndex
import proofs.«166468_j2645699854684_2_alg».proof.Proof.BlockReads
import Idealize.ShloMosaic.Lib.Pipeline.Value
import Idealize.ShloMosaic.Lib.ValueIdx
import Idealize.ShloMosaic.Lib.Tactic

set_option maxRecDepth 16384

noncomputable section

namespace Cert.EdgeMessage.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.EdgeMessage.BlockReads

variable (m : (ℓ : Loc nD τ sig) → Buf (Elt Ideal) ℓ)

/-! ## The block a point writes back -/

/-- What the body stores at `y` of its block at point `t` is the message of edge `6400·t + y₀` at feature `y₁`. -/
theorem stored_eq_message (c : Dev nD) (t : Fin cfg0.N) (y : S6400x128.Idx) (e : Fin 640000) (d : Fin 128)
    (he : e.val = 6400 * t.val + (y 0).val) (hd : d.val = (y 1).val) :
    (k0_pay1 (iblk m c 0 t) (iblk m c 3 t) (iblk m c 1 t) (iblk m c 4 t) (iblk m c 2 t) y : EReal)
      = messageAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) e d := by
  obtain ⟨p, q, rfl⟩ : ∃ (p : Fin 6400) (q : Fin 128), y = ix2 p q := ⟨y 0, y 1, eq_ix2 y⟩
  obtain rfl : d = q := Fin.ext hd
  refine (Body.stored_apply (iblk m c 0 t) (iblk m c 3 t) (iblk m c 1 t) (iblk m c 4 t) (iblk m c 2 t) p d).trans ?_
  unfold messageAt
  rw [nodeTermBlock_apply m c t p d e he, biasBlock_apply m c t d, normBlock_apply m c t p e he]
  simp only [edgeBlock_apply m c t p _ e he, weightBlock_apply m c t _ d]

/-- What point `t` writes back is what the body stored: its one store covers the whole block, and every load reads
    a whole input block. This holds for any reading of the floats. -/
theorem flushed_stored {F : FTy → Type} [FloatOps F] (m : (ℓ : Loc nD τ sig) → Buf (Elt F) ℓ) (c : Dev nD) (t : Fin cfg0.N) :
    (dats m 0 c).flushed 5 t
      = k0_pay1 (iblk m c 0 t) (iblk m c 3 t) (iblk m c 1 t) (iblk m c 4 t) (iblk m c 2 t) := by
  show (cfg0.win 5).cut (grid0.coords t) ((dats m 0 c).after 5 t) = _
  rw [after0_5]
  unfold out0_5
  rw [View.canon_unit_zero zero2]
  simp only [View.ld_unit_zero (S := S6400x128) zero2, View.ld_unit_zero (S := S128x128) zero2,
    View.ld_unit_zero (S := S128) zero1, View.ld_unit_zero (S := S6400x1) zero2]
  rfl

/-- WHAT POINT `t` WRITES BACK is block `t` of `message`. -/
theorem flushed_eq (c : Dev nD) (t : Fin cfg0.N) :
    (dats m 0 c).flushed 5 t = ((cfg0.win 5).blk t).view.read (Elt Ideal) (message (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [flushed_stored m c t]
  obtain ⟨-, -, -, -, -, -, -, -, -, h0, h1⟩ := blockNumbers t
  funext j
  rw [View.read_apply, message_apply]
  exact stored_eq_message m c t j _ _
    (by show win0_5.index t 0 * 6400 + 1 * (j 0).val = _; rw [h0]; omega)
    (by show win0_5.index t 1 * 128 + 1 * (j 1).val = _; rw [h1]; omega)

/-! ## The 100 row ranges fill the array -/

/-- An index of the output array is in point `t`'s block iff each coordinate is in the block's range. -/
theorem mem_block (t : Fin cfg0.N) (i : S640000x128.Idx) :
    i ∈ ((cfg0.win 5).blk t).view.set ↔
      ∀ a : Fin 2, win0_5.index t a * S6400x128.size a ≤ (i a).val ∧ (i a).val < win0_5.index t a * S6400x128.size a + S6400x128.size a := by
  show i ∈ ((View.whole main_v42).slice (win0_5.rect t)).set ↔ _
  rw [View.set_slice_whole, Rect.mem_set_unit]
  exact Iff.rfl

/-- Row `r` is in the block of point `r / 6400`. -/
theorem covered (i : S640000x128.Idx) :
    ∃ t : Fin cfg0.N, (cfg0.win 5).flush t = true ∧ i ∈ ((cfg0.win 5).blk t).view.set := by
  have hi0 : (i 0).val < 640000 := (i 0).isLt
  have hi1 : (i 1).val < 128 := (i 1).isLt
  have hN : cfg0.N = 100 := N_0
  let t : Fin cfg0.N := ⟨(i 0).val / 6400, by rw [hN]; omega⟩
  obtain ⟨-, -, -, -, -, -, -, -, -, h0, h1⟩ := blockNumbers t
  have ht : t.val = (i 0).val / 6400 := rfl
  refine ⟨t, flush0_5 t, ?_⟩
  rw [mem_block]
  intro a
  match a with
  | ⟨0, _⟩ =>
    show win0_5.index t 0 * 6400 ≤ (i 0).val ∧ (i 0).val < win0_5.index t 0 * 6400 + 6400
    rw [h0, ht]; omega
  | ⟨1, _⟩ =>
    show win0_5.index t 1 * 128 ≤ (i 1).val ∧ (i 1).val < win0_5.index t 1 * 128 + 128
    rw [h1]; omega

/-- THE OUTPUT ARRAY after the last point: the messages. -/
theorem final (c : Dev nD) : (dats m 0 c).arrAt 5 cfg0.N = message (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 5 (message (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed_eq m c t) covered

end Cert.EdgeMessage.Blocks

end
-- ==== Proof.KernelRun.lean ====
/-
  The kernel program's run, read: its result is `result` of its arguments.

  After the 100 grid points the kernel's output array holds `message`; the host lines that follow widen it back
  (the identity over the extended reals) and add its rows into a zero table at the edges' destinations.
-/
import proofs.«166468_j2645699854684_2_alg».proof.Proof.Gen.KernelIdeal.Frame
import proofs.«166468_j2645699854684_2_alg».proof.Proof.Spec
import proofs.«166468_j2645699854684_2_alg».proof.Proof.Blocks
import Idealize.ShloMosaic.Lib.StableHlo.Run
import Idealize.ShloMosaic.Lib.Pipeline.FrameSuffix

noncomputable section

namespace Cert.EdgeMessage.Kernel

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The output array as the host lines after the kernel find it. -/
theorem found_messages (c : Dev nD) :
    Pipeline.withArrays spec0 c (V0 m c) (fun w => (dats m 0 c).arrAt w cfg0.N) (Proc.devRef .tc main_v42)
      = message (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (Pipeline.withArrays_arr spec0 launch0.win.arr_inj c (V0 m c) (fun w => (dats m 0 c).arrAt w cfg0.N) 5).trans
    (Blocks.final m c)

/-- The destinations as the host lines after the kernel find them: as launched. -/
theorem found_dst (c : Dev nD) :
    Pipeline.withArrays spec0 c (V0 m c) (fun w => (dats m 0 c).arrAt w cfg0.N) (Proc.devRef .tc main_arg3)
      = (m ((c : Thread nD τ).loc main_arg3)) :=
  (Pipeline.withArrays_of_ne _ c (V0 m c) _ main_arg3 (by exact (by decide : ∀ w, Pipeline.arrRef spec0 w ≠ main_arg3))).trans
    (V_main_arg3 m c)

/-- The program's result buffer after the host lines that follow the kernel. -/
theorem tail_eq (c : Dev nD) :
    Pipeline.afterTail₀ cfgs (dats m) 0 (V0 m) [hostOps1] c main_v46 = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  show StableHlo.after hostOps1 _ (Proc.devRef .tc main_v46) = _
  after_results
  rw [found_messages m c, found_dst m c]
  rfl

/-- THE RUN: every weakly fair execution ends with the result buffer at `result` of the arguments, the arguments
    unchanged. -/
theorem run : θ_run defs (onTc (τ := τ) (main (F := Ideal))) ⟨m, fun _ => 0, ρ⟩ (fun r => ∀ c : Dev nD,
      r.2.mem ((c.tc : Thread nD τ).loc main_v46) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v46 (Pipeline.mem_restRefs_of main_v46 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c)))⟩)
    (run_main m ρ)

end Cert.EdgeMessage.Kernel

end
-- ==== Proof.NormGather.lean ====
/-
  The two ways the norms are looked up by node number agree.

  The kernel's host side takes entries of the length-10000 vector `nrm` at a column of node numbers; the
  reference first makes `nrm` a 10000 × 1 table and takes its rows (each one entry wide). Either way entry `e`
  of the result is `nrm` at the node number of edge `e`, read as a signed integer and brought into `[0, 9999]`
  as every gather start is.
-/
import proofs.«166468_j2645699854684_2_alg».proof.Proof.Gen.KernelIdeal
import proofs.«166468_j2645699854684_2_alg».proof.Proof.Gen.ReferenceIdeal
import Idealize.ShloMosaic.Lib.Pipeline.Value
import Idealize.ShloMosaic.Lib.ValueIdx

noncomputable section

namespace Cert.EdgeMessage.NormGather

open Idealize.ShloMosaic Idealize.ShloMosaic.ValueIdx

variable {α : Type}

local notation "vecTake" => Cert.KernelIdeal.gather_S10000_S640000x1_S640000_n_0_n_n_0_1_1
local notation "colTake" => Cert.ReferenceIdeal.gather_S10000x1_S640000x1_S640000x1_1_0_n_n_0_1_11

/-- The node number edge `e` looks up, as a table row: signed, brought into `[0, 9999]`. -/
def row (idx : IVec Cert.KernelIdeal.S640000x1 32) (e : Fin 640000) : Fin 10000 :=
  ⟨min (idx (ix2 e (0 : Fin 1))).toInt.toNat (10000 - 1), by omega⟩

/-- Entries of a vector taken at a column of node numbers. -/
theorem vecTake_apply (v : Cert.KernelIdeal.S10000.Idx → α) (idx : IVec Cert.KernelIdeal.S640000x1 32) (e : Fin 640000) :
    Host.gather vecTake v idx (ix1 e) = v (ix1 (row idx e)) := by
  unfold Host.gather
  refine congrArg v (funext fun a => ?_)
  obtain rfl : a = 0 := Subsingleton.elim _ _
  refine Fin.ext ?_
  show (vecTake).start (ix1 e) idx 0 + (vecTake).batchCoord (ix1 e) 0 + (vecTake).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTake).startIndexMap from List.mem_singleton.mpr rfl)]
  have hsi : (vecTake).siIdx (ix1 e) ⟨List.idxOf (0 : Fin 1) (vecTake).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Rows of the one-column table made from a vector, taken at the same column of node numbers. -/
theorem colTake_apply (v : Cert.KernelIdeal.S10000.Idx → α) (idx : IVec Cert.KernelIdeal.S640000x1 32)
    (h : Cert.ReferenceIdeal.S10000.BroadcastsInDim Cert.ReferenceIdeal.S10000x1 (![0] : Fin 1 → Fin Cert.ReferenceIdeal.S10000x1.rank))
    (e : Fin 640000) (u : Fin 1) :
    Host.gather colTake (broadcastInDim Cert.ReferenceIdeal.S10000x1 ![0] h v) idx (ix2 e u) = v (ix1 (row idx e)) := by
  unfold Host.gather
  refine broadcastInDim_apply _ h v _ (ix1 (row idx e)) fun a => ?_
  obtain rfl : a = 0 := Subsingleton.elim _ _
  rw [if_neg (by decide)]
  show min (idx (ix2 e (0 : Fin 1))).toInt.toNat (10000 - 1)
    = (colTake).start (ix2 e u) idx 0 + (colTake).batchCoord (ix2 e u) 0 + (colTake).offCoord (ix2 e u) 0
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (colTake).startIndexMap from List.mem_singleton.mpr rfl)]
  have hsi : (colTake).siIdx (ix2 e u) ⟨List.idxOf (0 : Fin 2) (colTake).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE TWO LOOK-UPS AGREE, entry by entry. -/
theorem colTake_eq_vecTake (v : Cert.KernelIdeal.S10000.Idx → α) (idx : IVec Cert.KernelIdeal.S640000x1 32)
    (h : Cert.ReferenceIdeal.S10000.BroadcastsInDim Cert.ReferenceIdeal.S10000x1 (![0] : Fin 1 → Fin Cert.ReferenceIdeal.S10000x1.rank))
    (e : Fin 640000) (u : Fin 1) :
    Host.gather colTake (broadcastInDim Cert.ReferenceIdeal.S10000x1 ![0] h v) idx (ix2 e u)
      = Host.gather vecTake v idx (ix1 e) :=
  (colTake_apply v idx h e u).trans (vecTake_apply v idx e).symm

end Cert.EdgeMessage.NormGather

end
-- ==== Proof.RefValue.lean ====
/-
  The reference computes the same messages and sums them the same way.

  Read one operation at a time, the reference's last product is, at edge `e` and feature `d`,

      max(((nodeTerm e d + Σₖ ef[e, k] · We[k, d]) + b[d]), 0) · (nrm-row (src e) · nrm-row (dst e)),

  with the additions associated exactly as in `messageAt`; its node terms are the same host operations as the
  kernel's, and its two norm look-ups (rows of the one-column norm table) are the kernel's look-ups of the norm
  vector. The final scatter-add into a zero table at the destinations is the same operation on both sides.
-/
import proofs.«166468_j2645699854684_2_alg».proof.Proof.Gen.ReferenceIdeal.Read
import proofs.«166468_j2645699854684_2_alg».proof.Proof.Spec
import proofs.«166468_j2645699854684_2_alg».proof.Proof.SpecRead
import proofs.«166468_j2645699854684_2_alg».proof.Proof.NormGather
import Idealize.ShloMosaic.Lib.ValueIdx

noncomputable section

namespace Cert.EdgeMessage.Reference

open Idealize.ShloMosaic Idealize.ShloMosaic.ValueIdx
open Cert.ReferenceIdeal.Read

variable (x : NodeRows) (ef : EdgeRows) (src dst : NodeNumbers) (Wq Wk We : Weight) (b : Bias)

/-- The reference's node terms are the kernel's: the same two products, row gathers and sum. -/
theorem nodeTerm_ref : val_main_v24 (F := Ideal) x src dst Wq Wk = nodeTerm x src dst Wq Wk := rfl

/-- The reference's norm vector is the kernel's: the same count, clamp and power. -/
theorem nrm_ref : val_main_v6 (F := Ideal) dst = nrm dst := rfl

/-- The reference's columns of node numbers are the kernel's. -/
theorem rowIdx_src_ref : val_main_v36 (F := Ideal) src = rowIdx src := rfl
theorem rowIdx_dst_ref : val_main_v43 (F := Ideal) dst = rowIdx dst := rfl

/-- A pointwise product of two arrays, read at an index, is the product of their two entries there. -/
theorem mulf_at {s : Shape} {φ : FTy} (a c : FVec Ideal s φ) (i : s.Idx) : mulf a c i = FloatOps.mulf (a i) (c i) := rfl

/-- The reference's norm product at edge `e` is the kernel's. -/
theorem normProd_ref (e : Fin 640000) (u : Fin 1) :
    val_main_v45 (F := Ideal) src dst (ix2 e u) = normProd src dst (ix1 e) := by
  rw [val_main_v45_apply]
  unfold val_main_v37 val_main_v44 val_main_v7 normProd
  rw [nrm_ref, rowIdx_src_ref, rowIdx_dst_ref, NormGather.colTake_eq_vecTake, NormGather.colTake_eq_vecTake, mulf_at]

/-- THE REFERENCE'S MESSAGES are `message`. -/
theorem message_ref : val_main_v47 (F := Ideal) x ef src dst Wq Wk We b = message x ef src dst Wq Wk We b := by
  funext i
  obtain ⟨e, d, rfl⟩ : ∃ (e : Fin 640000) (d : Fin 128), i = ix2 e d := ⟨i 0, i 1, eq_ix2 i⟩
  have hl : ∀ k : Fin 128, lidx_main_v25 (ix2 e d) k = ix2 e k := fun k => funext fun a => by
    match a with
    | ⟨0, _⟩ => rfl
    | ⟨1, _⟩ => rfl
  have hr : ∀ k : Fin 128, ridx_main_v25 (ix2 e d) k = ix2 k d := fun k => funext fun a => by
    match a with
    | ⟨0, _⟩ => rfl
    | ⟨1, _⟩ => rfl
  have hb : idx_main_v27 (idx_main_v28 (ix2 e d)) = ix1 d := funext fun a => by
    match a with
    | ⟨0, _⟩ => rfl
  have hn : idx_main_v46 (ix2 e d) = ix2 e (0 : Fin 1) := funext fun a => by
    match a with
    | ⟨0, _⟩ => rfl
    | ⟨1, _⟩ => rfl
  rw [val_main_v47_apply, val_main_v30_apply, val_main_v29_apply, val_main_v26_apply, val_main_v25_apply,
    val_main_v28_apply, val_main_v27_apply, val_main_call1_v0_apply, val_main_call1_cst_apply, val_main_v46_apply, hb, hn,
    normProd_ref, nodeTerm_ref, message_ix2]
  unfold messageAt
  simp only [hl, hr, Ideal.mulf_def, Ideal.addf_def, Ideal.maximumf_def, Ideal.ofBits_def]

/-- THE REFERENCE'S RESULT is `result`. -/
theorem result_ref : val_main_v50 (F := Ideal) x ef src dst Wq Wk We b = result x ef src dst Wq Wk We b := by
  unfold val_main_v50 result sumAtDst
  rw [message_ref]
  rfl

end Cert.EdgeMessage.Reference

end
-- ==== Proof.lean ====
/-
  One round of graph message passing, as a tiled kernel and as plain array code: the same result.

  Both programs compute, for every node `v`, the sum over the edges `e` with destination `v` of

      max((x·Wq)[dst e] + (x·Wk)[src e] + ef[e]·We + b, 0) · nrm (src e) · nrm (dst e),      nrm v = max(1, deg v)^(−1/2).

  The kernel program computes the node terms and the norm products on the host, runs the edge-feature product, the
  bias, the clamp at zero and the scaling in a kernel over 100 blocks of 6400 edges, and scatters the rows on the
  host; the reference does everything on whole arrays. Over the extended reals the two agree term by term: the
  changes of float width are the identity, a block of a matrix product is the product's block, and looking the
  norms up in a vector or in a one-column table reads the same entries. No law that needs finite numbers is used,
  so the precondition is never opened.

    Spec          the messages and the result, entry by entry
    BodyAtIndex   what the kernel body stores at an entry of its block
    EntryArrays   the two arrays the host computes for the kernel
    Blocks        the kernel's output array after the last grid point is `message`
    KernelRun     the kernel program's run ends at `result`
    NormGather    the two norm look-ups agree
    RefValue      the reference's run ends at `result`
-/
import proofs.«166468_j2645699854684_2_alg».proof.Defs
import proofs.«166468_j2645699854684_2_alg».proof.Proof.Gen.Kernel
import proofs.«166468_j2645699854684_2_alg».proof.Proof.Gen.Kernel.Frame
import proofs.«166468_j2645699854684_2_alg».proof.Proof.Gen.KernelIdeal
import proofs.«166468_j2645699854684_2_alg».proof.Proof.Gen.KernelIdeal.Frame
import proofs.«166468_j2645699854684_2_alg».proof.Proof.Gen.ReferenceIdeal
import proofs.«166468_j2645699854684_2_alg».proof.Proof.Gen.ReferenceIdeal.Run
import proofs.«166468_j2645699854684_2_alg».proof.Proof.Gen.ReferenceIdeal.Read
import proofs.«166468_j2645699854684_2_alg».proof.Proof.Gen.Pre_finite_inputs
import proofs.«166468_j2645699854684_2_alg».proof.Proof.KernelRun
import proofs.«166468_j2645699854684_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : @Cert.frame_Kernel Cert.Kernel.Gen.facts Cert.Pre_finite_inputs.Gen.facts :=
  fun m ρ _ => Cert.Kernel.Gen.frame m ρ

/-- So does the kernel program over the extended reals. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the arguments both programs end at `result` of those arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.EdgeMessage.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.EdgeMessage.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  exact (Cert.ReferenceIdeal.Read.val_main_v50_eq _ _ _ _ _ _ _ _).trans
    (Cert.EdgeMessage.Reference.result_ref _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
